-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x32 : Shape := ⟨2, ![512, 32]⟩
abbrev S32x16 : Shape := ⟨2, ![32, 16]⟩
abbrev S330000 : Shape := ⟨1, ![330000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S330000 : S_.BroadcastsInDim S330000 (![] : Fin 0 → Fin S330000.rank)
  reducesTo_S330000_S_d0 : S330000.ReducesTo [0] S_

variable [Facts]

def fn_part1 {F : FTy → Type} [FloatOps F] (main_v13 : IVec S_ 1) (main_v16 : IVec S330000 1) : IVec S_ 1 :=
  let main_c_5 : IVec S_ 1 := constantI S_ 1 1#1
  let main_v17 : IVec S_ 1 := (fun x v => Host.reduce IntOp.andi x v reducesTo_S330000_S_d0 h_S_) main_v16 main_c_5
  let main_v18 : IVec S_ 1 := andi main_v13 main_v17
  main_v18

def fn {F : FTy → Type} [FloatOps F] (main_arg0 : FVec F S10000x512 .f32) (main_arg1 : FVec F S512x32 .f32) (main_arg2 : FVec F S32x16 .f32) (main_arg3 : FVec F S330000 .f32) (main_arg4 : IVec S330000 32) (main_arg5 : IVec S330000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S330000 .f32 := Host.absf main_arg3
  let main_cst_4 : FVec F S_ .f32 := constant S_ .f32 0x7F800000#32
  let main_v15 : FVec F S330000 .f32 := broadcastInDim S330000 ![] bcast_S_S330000 main_cst_4
  let main_v16 : IVec S330000 1 := cmpf .olt main_v14 main_v15
  fn_part1 (F := F) main_v13 main_v16
-- ==== Kernel.lean ====
abbrev S10000x512 : Shape := ⟨2, ![10000, 512]⟩
abbrev S512x32 : Shape := ⟨2, ![512, 32]⟩
abbrev S32x16 : Shape := ⟨2, ![32, 16]⟩
abbrev S330000 : Shape := ⟨1, ![330000]⟩
abbrev S10000x32 : Shape := ⟨2, ![10000, 32]⟩
abbrev S330000x1 : Shape := ⟨2, ![330000, 1]⟩
abbrev S_ : Shape := ⟨0, ![]⟩
abbrev S330000x32 : Shape := ⟨2, ![330000, 32]⟩
abbrev S10000x16 : Shape := ⟨2, ![10000, 16]⟩
abbrev S330000x16 : Shape := ⟨2, ![330000, 16]⟩
abbrev S10240x16 : Shape := ⟨2, ![10240, 16]⟩
abbrev S10240x10240 : Shape := ⟨2, ![10240, 10240]⟩
abbrev S1024x16 : Shape := ⟨2, ![1024, 16]⟩
abbrev S1024x1024 : Shape := ⟨2, ![1024, 1024]⟩
abbrev S16x1024 : Shape := ⟨2, ![16, 1024]⟩
abbrev S10000x10000 : Shape := ⟨2, ![10000, 10000]⟩

abbrev nBuf : Space → Nat
  | .hbm => 48
  | .vmem => 6
  | .smem => 0
  | _ => 0

abbrev bufTy : (tb : Table) → Fin (tcTables nBuf tb) → BufTy
  | .hbm, ⟨0, _⟩ => ⟨S10000x512, .f32⟩
  | .hbm, ⟨1, _⟩ => ⟨S512x32, .f32⟩
  | .hbm, ⟨2, _⟩ => ⟨S32x16, .f32⟩
  | .hbm, ⟨3, _⟩ => ⟨S330000, .f32⟩
  | .hbm, ⟨4, _⟩ => ⟨S330000, .i32⟩
  | .hbm, ⟨5, _⟩ => ⟨S330000, .i32⟩
  | .hbm, ⟨6, _⟩ => ⟨S10000x32, .f32⟩
  | .hbm, ⟨7, _⟩ => ⟨S330000x1, .f32⟩
  | .hbm, ⟨8, _⟩ => ⟨S_, .i32⟩
  | .hbm, ⟨9, _⟩ => ⟨S330000, .i32⟩
  | .hbm, ⟨10, _⟩ => ⟨S330000, .i1⟩
  | .hbm, ⟨11, _⟩ => ⟨S_, .i32⟩
  | .hbm, ⟨12, _⟩ => ⟨S330000, .i32⟩
  | .hbm, ⟨13, _⟩ => ⟨S330000, .i32⟩
  | .hbm, ⟨14, _⟩ => ⟨S330000, .i32⟩
  | .hbm, ⟨15, _⟩ => ⟨S330000x1, .i32⟩
  | .hbm, ⟨16, _⟩ => ⟨S330000x32, .f32⟩
  | .hbm, ⟨17, _⟩ => ⟨S330000x32, .f32⟩
  | .hbm, ⟨18, _⟩ => ⟨S330000x32, .f32⟩
  | .hbm, ⟨19, _⟩ => ⟨S_, .f32⟩
  | .hbm, ⟨20, _⟩ => ⟨S10000x32, .f32⟩
  | .hbm, ⟨21, _⟩ => ⟨S330000x1, .i32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x16, .f32⟩
  | .hbm, ⟨27, _⟩ => ⟨S330000x1, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000x16, .f32⟩
  | .hbm, ⟨37, _⟩ => ⟨S330000x16, .f32⟩
  | .hbm, ⟨38, _⟩ => ⟨S330000x16, .f32⟩
  | .hbm, ⟨39, _⟩ => ⟨S_, .f32⟩
  | .hbm, ⟨40, _⟩ => ⟨S10000x16, .f32⟩
  | .hbm, ⟨41, _⟩ => ⟨S330000x1, .i32⟩
  | .hbm, ⟨42, _⟩ => ⟨S10000x16, .f32⟩
  | .hbm, ⟨43, _⟩ => ⟨S_, .i32⟩
  | .hbm, ⟨44, _⟩ => ⟨S_, .f32⟩
  | .hbm, ⟨45, _⟩ => ⟨S10240x16, .f32⟩
  | .hbm, ⟨46, _⟩ => ⟨S10240x10240, .f32⟩
  | .hbm, ⟨47, _⟩ => ⟨S10000x10000, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x1024, .f32⟩
  | .local _ .vmem, ⟨5, _⟩ => ⟨S1024x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  pads_S10000x16_S10240x16_02400_000 : S10000x16.Pads (![0, 0] : Fin 2 → Nat) ![240, 0] ![0, 0] S10240x16
  h_S_ : 0 < S_.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  transposes_S1024x16_p1_0_S16x1024 : S1024x16.Transposes [1, 0] S16x1024
  inb_S1024x1024_S1024x1024_0_0 : ∀ a, (![0, 0] : Fin 2 → Nat) a + S1024x1024.size a ≤ S1024x1024.size a
  h_S1024x1024 : 0 < S1024x1024.numel
  slices_S10240x10240_S10000x10000_0_0 : S10240x10240.Slices ![0, 0] S10000x10000
  dot_S10000x512_S512x32_S10000x32_1_0_0_1_n_n_wf : DotDims.WF S10000x512 S512x32 S10000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x16_S10000x16_1_0_0_1_n_n_wf : DotDims.WF S10000x32 S32x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S10240x16.size a
  hwx0_0 : ∀ i : grid0.Coords, EltTy.bits .f32 = 32 ∨ (Rect.block (s := S10240x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S10240x16.size a
  hwx0_1 : ∀ i : grid0.Coords, EltTy.bits .f32 = 32 ∨ (Rect.block (s := S10240x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S10240x10240.size a
  hwx0_2 : ∀ i : grid0.Coords, EltTy.bits .f32 = 32 ∨ (Rect.block (s := S10240x10240) S1024x1024.size (cc0_transform_2 i) (hinb0_2 i)).WholeWords (EltTy.packing .f32)

variable [Facts₀]

def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v29) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x32 : Shape := ⟨2, ![512, 32]⟩
abbrev S32x16 : Shape := ⟨2, ![32, 16]⟩
abbrev S330000 : Shape := ⟨1, ![330000]⟩
abbrev S10000x32 : Shape := ⟨2, ![10000, 32]⟩
abbrev S330000x1 : Shape := ⟨2, ![330000, 1]⟩
abbrev S_ : Shape := ⟨0, ![]⟩
abbrev S330000x32 : Shape := ⟨2, ![330000, 32]⟩
abbrev S10000x16 : Shape := ⟨2, ![10000, 16]⟩
abbrev S330000x16 : Shape := ⟨2, ![330000, 16]⟩
abbrev S10000x10000 : Shape := ⟨2, ![10000, 10000]⟩

abbrev nBuf : Space → Nat
  | .hbm => 52
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x32, .f32⟩
  | .hbm, ⟨2, _⟩ => ⟨S32x16, .f32⟩
  | .hbm, ⟨3, _⟩ => ⟨S330000, .f32⟩
  | .hbm, ⟨4, _⟩ => ⟨S330000, .i32⟩
  | .hbm, ⟨5, _⟩ => ⟨S330000, .i32⟩
  | .hbm, ⟨6, _⟩ => ⟨S10000x32, .f32⟩
  | .hbm, ⟨7, _⟩ => ⟨S330000x1, .f32⟩
  | .hbm, ⟨8, _⟩ => ⟨S_, .i32⟩
  | .hbm, ⟨9, _⟩ => ⟨S330000, .i32⟩
  | .hbm, ⟨10, _⟩ => ⟨S330000, .i1⟩
  | .hbm, ⟨11, _⟩ => ⟨S_, .i32⟩
  | .hbm, ⟨12, _⟩ => ⟨S330000, .i32⟩
  | .hbm, ⟨13, _⟩ => ⟨S330000, .i32⟩
  | .hbm, ⟨14, _⟩ => ⟨S330000, .i32⟩
  | .hbm, ⟨15, _⟩ => ⟨S330000x1, .i32⟩
  | .hbm, ⟨16, _⟩ => ⟨S330000x32, .f32⟩
  | .hbm, ⟨17, _⟩ => ⟨S330000x32, .f32⟩
  | .hbm, ⟨18, _⟩ => ⟨S330000x32, .f32⟩
  | .hbm, ⟨19, _⟩ => ⟨S_, .f32⟩
  | .hbm, ⟨20, _⟩ => ⟨S10000x32, .f32⟩
  | .hbm, ⟨21, _⟩ => ⟨S330000x1, .i32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x16, .f32⟩
  | .hbm, ⟨27, _⟩ => ⟨S330000x1, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000x16, .f32⟩
  | .hbm, ⟨37, _⟩ => ⟨S330000x16, .f32⟩
  | .hbm, ⟨38, _⟩ => ⟨S330000x16, .f32⟩
  | .hbm, ⟨39, _⟩ => ⟨S_, .f32⟩
  | .hbm, ⟨40, _⟩ => ⟨S10000x16, .f32⟩
  | .hbm, ⟨41, _⟩ => ⟨S330000x1, .i32⟩
  | .hbm, ⟨42, _⟩ => ⟨S10000x16, .f32⟩
  | .hbm, ⟨43, _⟩ => ⟨S10000x10000, .f32⟩
  | .hbm, ⟨44, _⟩ => ⟨S10000x10000, .f32⟩
  | .hbm, ⟨45, _⟩ => ⟨S10000x10000, .f32⟩
  | .hbm, ⟨46, _⟩ => ⟨S_, .f32⟩
  | .hbm, ⟨47, _⟩ => ⟨S10000x10000, .f32⟩
  | .hbm, ⟨48, _⟩ => ⟨S10000x10000, .f32⟩
  | .hbm, ⟨49, _⟩ => ⟨S_, .f32⟩
  | .hbm, ⟨50, _⟩ => ⟨S10000x10000, .f32⟩
  | .hbm, ⟨51, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S_S10000x10000 : S_.BroadcastsInDim S10000x10000 (![] : Fin 0 → Fin S10000x10000.rank)
  dot_S10000x512_S512x32_S10000x32_1_0_0_1_n_n_wf : DotDims.WF S10000x512 S512x32 S10000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x16_S10000x16_1_0_0_1_n_n_wf : DotDims.WF S10000x32 S32x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S10000x16_S10000x16_S10000x10000_1_1_0_0_n_n_wf : DotDims.WF S10000x16 S10000x16 S10000x10000 [1] [1] [0] [0] [] []

variable [Facts₀]

def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S10000x16_S10000x16_S10000x10000_1_1_0_0_n_n : DotDims S10000x16 S10000x16 S10000x10000 where
  lhsContracting := [1]
  rhsContracting := [1]
  lhsNonContracting := [0]
  rhsNonContracting := [0]
  lhsBatch := []
  rhsBatch := []
  wf := dot_S10000x16_S10000x16_S10000x10000_1_1_0_0_n_n_wf

class Facts : Prop extends Facts₀ where

variable [Facts]
-- ==== Proof.BitsBody.lean ====
/-
  The decode stage's body and its proof data, at any float instance.

  The program pads the encoder's output z (10000 × 16) with 240 zero rows, hands the padded array to the decode
  kernel TWICE — once tiled by the row index of the 10 × 10 grid, once by the column index — and slices the
  10240 × 10240 result back to 10000 × 10000.  At grid point (i, j) the body reads row block i (1024 × 16) and row
  block j, and stores logistic(zi · zjᵀ) (1024 × 1024) into the output block (i, j); it also loads the output buffer
  once, a value it never uses.

  This module states: what the buffers hold when the region is entered (the host lines before it applied to the
  launch contents), that no host line writes an argument, what each input window's staging buffer holds at a point
  (its block of the padded array, fetched there or not), the body's triple, and the proof data of the pipeline —
  the two input windows holding the LEFT and the RIGHT half share of the one padded array.
-/
import proofs.«156759_j32040456028319_1_alg».proof.Proof.Gen.Kernel.Launch
import proofs.«156759_j32040456028319_1_alg».proof.Proof.Gen.Kernel.Skeleton
import proofs.«156759_j32040456028319_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host lines before the region: the two graph-convolution layers and the padding. -/
abbrev prefixOps : List (List (HloOp τ sig (Elt F))) := [hostOps0, hostOps0_1, hostOps0_2, hostOps0_3]

/-- Core `c`'s buffer contents when the region is entered, as a valuation: the host lines before it applied to the
    launch contents. -/
abbrev V0 (c : Dev nD) : Valuation τ sig (Elt F) := StableHlo.after (prefixOps (F := F)).flatten (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region
    continued by the slice, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's current staging buffer holds its block at every point, fetched there or not (unfetched,
    the block index has not moved), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column-block window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output buffer -/

abbrev rIn : Rect S1024x16 := Rect.unit (s := S1024x16) ![0, 0] S1024x16.size inb_S1024x16_S1024x16_0_0
abbrev rOut : Rect S1024x1024 := Rect.unit (s := S1024x1024) ![0, 0] S1024x1024.size inb_S1024x1024_S1024x1024_0_0

/-- The output window's staging buffer after the body, from the two input blocks: its one store, of the whole
    buffer, of the logistic of the product of the first block with the transpose of the second. -/
def outBlock (x0 : Vec F S1024x16 .f32) (x1 : Vec F S1024x16 .f32) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the inputs' at contents `x0`, `x1` and the output's at anything, runs to
    the continuation holding the inputs' as they were and the output's at `outBlock x0 x1`. -/
theorem sound_kernel (c : Dev nD) (E : Set ℕ) (i : grid0.Coords) (arg2 : Memref sig .tc .vmem S1024x16 .f32) (harg2 : arg2.IsWhole)
    (arg3 : Memref sig .tc .vmem S1024x16 .f32) (harg3 : arg3.IsWhole) (arg4 : Memref sig .tc .vmem S1024x1024 .f32) (harg4 : arg4.IsWhole)
    (x0 : Vec F S1024x16 .f32) (x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the pipeline on core `c`: the arrays as the region finds them; after the body at point `t`
    each input's buffer at its block and the output's at `outBlock` of the two blocks; the invariant the scoped rest
    and the generator register, untouched; nothing owed; the two input windows, which read ONE array, hold its left
    and its right half share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Decode

end
-- ==== Proof.BitsRun.lean ====
/-
  The decode stage's launch: the run of @main at any float instance, with every buffer named at the end.

  The pipeline's two input windows read ONE array (the padded encoder output), so the launch cannot hold "every
  window's array at the full share": the array's points-to is split in its left and right halves at the region's
  entry, one half per window, and the halves are simply kept after the region — the one host line that follows (the
  slice of the result) never touches the padded array, so it runs holding only the result array and the buffers
  that bypass the region.
-/
import proofs.«156759_j32040456028319_1_alg».proof.Proof.BitsBody

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

/-- The pipeline's arrays at contents `Fn`: the padded array's left half share (the row-block window), its right half
    share (the column-block window), and the result array whole. -/
theorem arrays_eq3 (c : Dev nD) (Fn : (w : Fin cfg0.W) → Buf (Elt F) ((cfg0.win w).arr.view.loc (c.tc : Thread nD τ))) :
    ((dats m 0 c).arrays Fn : sProp 𝕄)
      = iprop((((c.tc : Thread nD τ).loc main_v29) ↦{fullShare.left} Fn 0) ∗ (((c.tc : Thread nD τ).loc main_v29) ↦{fullShare.right} Fn 1)
          ∗ (((c.tc : Thread nD τ).loc main_v30) ↦{fullShare} Fn 2)) := by
  unfold Dat.arrays
  rw [bigSep_W0, (arr_whole0 0).set_eq_univ, (arr_whole0 2).set_eq_univ]
  rfl

/-- The buffers behind the windows' arrays are the padded array and the result array. -/
theorem arrBufs_eq (c : Dev nD) (Vf : (b : Ref sig .tc) → Buf (Elt F) ((c.tc : Thread nD τ).loc b)) :
    (Pipeline.arrBufs spec0 c Vf : sProp 𝕄)
      = iprop((((c.tc : Thread nD τ).loc main_v29) ↦{fullShare} Vf main_v29) ∗ (((c.tc : Thread nD τ).loc main_v30) ↦{fullShare} Vf main_v30)) := by
  unfold Pipeline.arrBufs
  rw [show Finset.univ.image (Pipeline.arrRef spec0) = insert main_v29 {main_v30} from by decide,
    bigSep_insert (by decide), bigSep_singleton]
  rfl

/-- At the region's entry the padded array's full share is dealt in halves to the two windows that read it. -/
theorem hsplit (c : Dev nD) :
    (Pipeline.arrBufs spec0 c (V m c) : sProp 𝕄) ⊢ (dats m 0 c).arrays ((dats m 0 c).arrAt · 0) := by
  rw [arrays_eq3, arrBufs_eq]
  iintro ⟨H29, H30⟩
  ihave H := (pointsTo_share (PosShare.mem_left_op_right fullShare)).1 $$ H29
  icases H with ⟨Hl, Hr⟩
  isplitl [Hl]; · iexact Hl
  isplitl [Hr]; · iexact Hr
  iexact H30

/-! ## The slice after the region -/

/-- The references the slice runs within: the result array and the buffers that bypass the region (every unscoped
    buffer but the padded array, whose halves the pipeline's windows keep). -/
def tailSet : Finset (DevRef τ sig) :=
  (insert main_v30 (Pipeline.restRefs sig spec0)).map ⟨Proc.devRef (sig := sig) .tc, Proc.devRef_injective _⟩

theorem v30_not_rest : main_v30 ∉ Pipeline.restRefs sig spec0 := fun h =>
  (Finset.mem_sdiff.mp h).2 (Finset.mem_image.mpr ⟨2, Finset.mem_univ _, rfl⟩)

/-- That set held at a valuation: the result array and the bypassing buffers at it. -/
theorem held_tailSet (c : Dev nD) (W : Valuation τ sig (Elt F)) :
    (StableHlo.held (c.tc : Thread nD τ) tailSet W : sProp 𝕄)
      = iprop((((c.tc : Thread nD τ).loc main_v30) ↦{fullShare} W (Proc.devRef .tc main_v30))
          ∗ Pipeline.unscopedRest spec0 c (fun b => W (Proc.devRef .tc b))) := by
  unfold StableHlo.held tailSet Pipeline.unscopedRest
  rw [bigSep_map, bigSep_insert v30_not_rest]
  rfl

open Classical in
/-- The buffers at the region's exit, as far as the slice sees them: the result array at what the pipeline wrote
    back, every other buffer as the region found it. -/
def Wexit (c : Dev nD) : Valuation τ sig (Elt F) :=
  Function.update (V0 m c) (Proc.devRef .tc main_v30) ((dats m 0 c).arrAt 2 cfg0.N)

/-- The buffers after the slice. -/
def Wend (c : Dev nD) : Valuation τ sig (Elt F) := StableHlo.after (List.flatten [hostOps1]) (Wexit m c)
/-- The same read at a TensorCore reference. -/
abbrev Vend (c : Dev nD) (b : Ref sig .tc) : Buf (Elt F) ((c : Thread nD τ).loc b) := Wend m c (Proc.devRef .tc b)

theorem Wexit_v30 (c : Dev nD) : Wexit m c (Proc.devRef .tc main_v30) = (dats m 0 c).arrAt 2 cfg0.N := by
  unfold Wexit; rw [Function.update_self]

theorem Wexit_of_ne (c : Dev nD) (b : Ref sig .tc) (hb : b ≠ main_v30) : Wexit m c (Proc.devRef .tc b) = V m c b := by
  unfold Wexit; rw [Function.update_of_ne (StableHlo.devRef_ne_of_ne hb)]

/-- The slice's result: the leading 10000 × 10000 corner of what the pipeline wrote back. -/
theorem Vend_v31 (c : Dev nD) : Vend m c main_v31
    = extractStridedSlice S10000x10000 ![0, 0] ((dats m 0 c).arrAt 2 cfg0.N) slices_S10240x10240_S10000x10000_0_0 := by
  show StableHlo.after hostOps1 (Wexit m c) (Proc.devRef .tc main_v31) = _
  after_results
  rw [Wexit_v30]

/-- Every other reference is as the region found it (the slice writes only its result). -/
theorem Vend_of_ne (c : Dev nD) (b : Ref sig .tc) (hb : b ≠ main_v31) (hb' : b ≠ main_v30) : Vend m c b = V m c b := by
  show StableHlo.after hostOps1 (Wexit m c) (Proc.devRef .tc b) = _
  simp only [StableHlo.after_cons, StableHlo.after_nil]
  rw [StableHlo.unary_result_ne _ _ _ _ _ _ hb, Wexit_of_ne m c b hb']

theorem Wend_v30 (c : Dev nD) : Wend m c (Proc.devRef .tc main_v30) = (dats m 0 c).arrAt 2 cfg0.N := by
  show StableHlo.after hostOps1 (Wexit m c) (Proc.devRef .tc main_v30) = _
  simp only [StableHlo.after_cons, StableHlo.after_nil]
  rw [StableHlo.unary_result_ne _ _ _ _ _ _ (by decide), Wexit_v30]

/-- The slice touches the result array and its own result, a bypassing buffer. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.unary_bufs]
  intro b hb
  simp only [Finset.mem_insert, Finset.mem_singleton] at hb
  unfold tailSet
  rcases hb with rfl | rfl
  · exact Finset.mem_map_of_mem _ (Finset.mem_insert_self _ _)
  · exact Finset.mem_map_of_mem _ (Finset.mem_insert_of_mem (Pipeline.mem_restRefs_of main_v31 (by decide) (by decide)))

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- THE SLICE AFTER THE REGION: from the region's exit — the boundary, the pipeline's arrays at what it wrote back,
    the bypassing buffers as the region found them — the slice runs holding the result array and the bypassing
    buffers, and hands back the arrays unchanged and the bypassing buffers at `Vend`. The padded array's two half
    shares are carried across untouched. -/
theorem htail (𝒱₀ : Variants) (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have hW : (StableHlo.held (c.tc : Thread nD τ) tailSet (Wexit m c) : sProp 𝕄)
      = iprop((((c.tc : Thread nD τ).loc main_v30) ↦{fullShare} (dats m 0 c).arrAt 2 cfg0.N) ∗ Pipeline.unscopedRest spec0 c (V m c)) := by
    have hr : (Pipeline.unscopedRest spec0 c (fun b => Wexit m c (Proc.devRef .tc b)) : sProp 𝕄) = Pipeline.unscopedRest spec0 c (V m c) := by
      unfold Pipeline.unscopedRest
      exact bigSep_congr fun b hb => by dsimp only; rw [Wexit_of_ne m c b (fun e => v30_not_rest (e ▸ hb))]
    rw [held_tailSet, Wexit_v30, hr]
  have hW' : (StableHlo.held (c.tc : Thread nD τ) tailSet (StableHlo.after (List.flatten [hostOps1]) (Wexit m c)) : sProp 𝕄)
      = iprop((((c.tc : Thread nD τ).loc main_v30) ↦{fullShare} (dats m 0 c).arrAt 2 cfg0.N) ∗ Pipeline.unscopedRest spec0 c (Vend m c)) := by
    have h := held_tailSet (F := F) c (Wend m c)
    rw [Wend_v30] at h
    exact h
  rw [arrays_eq3]
  iintro ⟨Hk, Hb, ⟨A0, A1, A2⟩, HZ⟩
  ihave Hheld := (Entails.of_eq hW.symm) $$ [A2 HZ]
  · isplitl [A2]; · iexact A2
    iexact HZ
  iapply (Pipeline.wp_seqs_then (fun q => (cfgs q).toPCfg (Val := Elt F)) defs₀ 𝒱₀ c tailSet [] [hostOps1] tail_sub tail_fresh (Wexit m c)) $$ [Hb Hheld]
  · isplitl [Hb]; · iexact Hb
    iexact Hheld
  iintro Hb
  rw [Pipeline.chain_nil, wp_pure, hW']
  imodintro
  iapply Hk
  icases Hb with ⟨-, A2, HZ⟩
  isplitl [A0 A1 A2]
  · isplitl [A0]; · iexact A0
    isplitl [A1]; · iexact A1
    iexact A2
  iexact HZ

/-! ## The run -/

set_option backward.isDefEq.respectTransparency.types false in
/-- At the compiled mesh, from any memory with zero counters: every weakly fair execution of @main on the
    TensorCores terminates, and every final state has every buffer that bypasses the region — the arguments and
    the result of the slice among them — at `Vend`. -/
theorem run_main : θ_run defs (onTc (τ := τ) (main (F := F))) (s₀ m ρ)
    (fun r => ∀ c : Dev nD, ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      iintro ⟨HU, -, -, -, Hp, -⟩; imodintro
      isplitl [Hp]; · iexists _; iexact Hp
      iapply (Entails.of_eq (Pipeline.unscopedRestP_none spec0 c (V m c))); iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m Variants.none c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => (h c).2.2)

/-! ## The frame, and the run with the result named -/

/-- THE FRAME: every weakly fair execution of @main terminates, nothing faulting, and the argument arrays end
    unchanged — each bypasses the region, no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0 (Pipeline.mem_restRefs_of main_arg0 (by decide) (by decide))).trans ((Vend_of_ne m c main_arg0 (by decide) (by decide)).trans (V_main_arg0 m c)),
      (h c main_arg1 (Pipeline.mem_restRefs_of main_arg1 (by decide) (by decide))).trans ((Vend_of_ne m c main_arg1 (by decide) (by decide)).trans (V_main_arg1 m c)),
      (h c main_arg2 (Pipeline.mem_restRefs_of main_arg2 (by decide) (by decide))).trans ((Vend_of_ne m c main_arg2 (by decide) (by decide)).trans (V_main_arg2 m c)),
      (h c main_arg3 (Pipeline.mem_restRefs_of main_arg3 (by decide) (by decide))).trans ((Vend_of_ne m c main_arg3 (by decide) (by decide)).trans (V_main_arg3 m c)),
      (h c main_arg4 (Pipeline.mem_restRefs_of main_arg4 (by decide) (by decide))).trans ((Vend_of_ne m c main_arg4 (by decide) (by decide)).trans (V_main_arg4 m c)),
      (h c main_arg5 (Pipeline.mem_restRefs_of main_arg5 (by decide) (by decide))).trans ((Vend_of_ne m c main_arg5 (by decide) (by decide)).trans (V_main_arg5 m c))⟩) (run_main m ρ)

/-- The run with the result named: the slice of what the pipeline wrote back; the arguments unchanged. -/
theorem run_result : θ_run defs (onTc (τ := τ) (main (F := F))) ⟨m, fun _ => 0, ρ⟩ (fun r => ∀ c : Dev nD,
      r.2.mem ((c.tc : Thread nD τ).loc main_v31)
        = extractStridedSlice S10000x10000 ![0, 0] ((dats m 0 c).arrAt 2 cfg0.N) slices_S10240x10240_S10000x10000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v31 (Pipeline.mem_restRefs_of main_v31 (by decide) (by decide))).trans (Vend_v31 m c),
      (h c main_arg0 (Pipeline.mem_restRefs_of main_arg0 (by decide) (by decide))).trans ((Vend_of_ne m c main_arg0 (by decide) (by decide)).trans (V_main_arg0 m c)),
      (h c main_arg1 (Pipeline.mem_restRefs_of main_arg1 (by decide) (by decide))).trans ((Vend_of_ne m c main_arg1 (by decide) (by decide)).trans (V_main_arg1 m c)),
      (h c main_arg2 (Pipeline.mem_restRefs_of main_arg2 (by decide) (by decide))).trans ((Vend_of_ne m c main_arg2 (by decide) (by decide)).trans (V_main_arg2 m c)),
      (h c main_arg3 (Pipeline.mem_restRefs_of main_arg3 (by decide) (by decide))).trans ((Vend_of_ne m c main_arg3 (by decide) (by decide)).trans (V_main_arg3 m c)),
      (h c main_arg4 (Pipeline.mem_restRefs_of main_arg4 (by decide) (by decide))).trans ((Vend_of_ne m c main_arg4 (by decide) (by decide)).trans (V_main_arg4 m c)),
      (h c main_arg5 (Pipeline.mem_restRefs_of main_arg5 (by decide) (by decide))).trans ((Vend_of_ne m c main_arg5 (by decide) (by decide)).trans (V_main_arg5 m c))⟩) (run_main m ρ)

end Cert.Kernel.Decode

end
-- ==== Proof.IdealBody.lean ====
/-
  The decode stage's body and its proof data, at any float instance.

  The program pads the encoder's output z (10000 × 16) with 240 zero rows, hands the padded array to the decode
  kernel TWICE — once tiled by the row index of the 10 × 10 grid, once by the column index — and slices the
  10240 × 10240 result back to 10000 × 10000.  At grid point (i, j) the body reads row block i (1024 × 16) and row
  block j, and stores logistic(zi · zjᵀ) (1024 × 1024) into the output block (i, j); it also loads the output buffer
  once, a value it never uses.

  This module states: what the buffers hold when the region is entered (the host lines before it applied to the
  launch contents), that no host line writes an argument, what each input window's staging buffer holds at a point
  (its block of the padded array, fetched there or not), the body's triple, and the proof data of the pipeline —
  the two input windows holding the LEFT and the RIGHT half share of the one padded array.
-/
import proofs.«156759_j32040456028319_1_alg».proof.Proof.Gen.KernelIdeal.Launch
import proofs.«156759_j32040456028319_1_alg».proof.Proof.Gen.KernelIdeal.Skeleton
import proofs.«156759_j32040456028319_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host lines before the region: the two graph-convolution layers and the padding. -/
abbrev prefixOps : List (List (HloOp τ sig (Elt F))) := [hostOps0, hostOps0_1, hostOps0_2, hostOps0_3]

/-- Core `c`'s buffer contents when the region is entered, as a valuation: the host lines before it applied to the
    launch contents. -/
abbrev V0 (c : Dev nD) : Valuation τ sig (Elt F) := StableHlo.after (prefixOps (F := F)).flatten (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region
    continued by the slice, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's current staging buffer holds its block at every point, fetched there or not (unfetched,
    the block index has not moved), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column-block window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output buffer -/

abbrev rIn : Rect S1024x16 := Rect.unit (s := S1024x16) ![0, 0] S1024x16.size inb_S1024x16_S1024x16_0_0
abbrev rOut : Rect S1024x1024 := Rect.unit (s := S1024x1024) ![0, 0] S1024x1024.size inb_S1024x1024_S1024x1024_0_0

/-- The output window's staging buffer after the body, from the two input blocks: its one store, of the whole
    buffer, of the logistic of the product of the first block with the transpose of the second. -/
def outBlock (x0 : Vec F S1024x16 .f32) (x1 : Vec F S1024x16 .f32) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the inputs' at contents `x0`, `x1` and the output's at anything, runs to
    the continuation holding the inputs' as they were and the output's at `outBlock x0 x1`. -/
theorem sound_kernel (c : Dev nD) (E : Set ℕ) (i : grid0.Coords) (arg2 : Memref sig .tc .vmem S1024x16 .f32) (harg2 : arg2.IsWhole)
    (arg3 : Memref sig .tc .vmem S1024x16 .f32) (harg3 : arg3.IsWhole) (arg4 : Memref sig .tc .vmem S1024x1024 .f32) (harg4 : arg4.IsWhole)
    (x0 : Vec F S1024x16 .f32) (x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the pipeline on core `c`: the arrays as the region finds them; after the body at point `t`
    each input's buffer at its block and the output's at `outBlock` of the two blocks; the invariant the scoped rest
    and the generator register, untouched; nothing owed; the two input windows, which read ONE array, hold its left
    and its right half share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Decode

end
-- ==== Proof.IdealRun.lean ====
/-
  The decode stage's launch: the run of @main at any float instance, with every buffer named at the end.

  The pipeline's two input windows read ONE array (the padded encoder output), so the launch cannot hold "every
  window's array at the full share": the array's points-to is split in its left and right halves at the region's
  entry, one half per window, and the halves are simply kept after the region — the one host line that follows (the
  slice of the result) never touches the padded array, so it runs holding only the result array and the buffers
  that bypass the region.
-/
import proofs.«156759_j32040456028319_1_alg».proof.Proof.IdealBody

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

/-- The pipeline's arrays at contents `Fn`: the padded array's left half share (the row-block window), its right half
    share (the column-block window), and the result array whole. -/
theorem arrays_eq3 (c : Dev nD) (Fn : (w : Fin cfg0.W) → Buf (Elt F) ((cfg0.win w).arr.view.loc (c.tc : Thread nD τ))) :
    ((dats m 0 c).arrays Fn : sProp 𝕄)
      = iprop((((c.tc : Thread nD τ).loc main_v29) ↦{fullShare.left} Fn 0) ∗ (((c.tc : Thread nD τ).loc main_v29) ↦{fullShare.right} Fn 1)
          ∗ (((c.tc : Thread nD τ).loc main_v30) ↦{fullShare} Fn 2)) := by
  unfold Dat.arrays
  rw [bigSep_W0, (arr_whole0 0).set_eq_univ, (arr_whole0 2).set_eq_univ]
  rfl

/-- The buffers behind the windows' arrays are the padded array and the result array. -/
theorem arrBufs_eq (c : Dev nD) (Vf : (b : Ref sig .tc) → Buf (Elt F) ((c.tc : Thread nD τ).loc b)) :
    (Pipeline.arrBufs spec0 c Vf : sProp 𝕄)
      = iprop((((c.tc : Thread nD τ).loc main_v29) ↦{fullShare} Vf main_v29) ∗ (((c.tc : Thread nD τ).loc main_v30) ↦{fullShare} Vf main_v30)) := by
  unfold Pipeline.arrBufs
  rw [show Finset.univ.image (Pipeline.arrRef spec0) = insert main_v29 {main_v30} from by decide,
    bigSep_insert (by decide), bigSep_singleton]
  rfl

/-- At the region's entry the padded array's full share is dealt in halves to the two windows that read it. -/
theorem hsplit (c : Dev nD) :
    (Pipeline.arrBufs spec0 c (V m c) : sProp 𝕄) ⊢ (dats m 0 c).arrays ((dats m 0 c).arrAt · 0) := by
  rw [arrays_eq3, arrBufs_eq]
  iintro ⟨H29, H30⟩
  ihave H := (pointsTo_share (PosShare.mem_left_op_right fullShare)).1 $$ H29
  icases H with ⟨Hl, Hr⟩
  isplitl [Hl]; · iexact Hl
  isplitl [Hr]; · iexact Hr
  iexact H30

/-! ## The slice after the region -/

/-- The references the slice runs within: the result array and the buffers that bypass the region (every unscoped
    buffer but the padded array, whose halves the pipeline's windows keep). -/
def tailSet : Finset (DevRef τ sig) :=
  (insert main_v30 (Pipeline.restRefs sig spec0)).map ⟨Proc.devRef (sig := sig) .tc, Proc.devRef_injective _⟩

theorem v30_not_rest : main_v30 ∉ Pipeline.restRefs sig spec0 := fun h =>
  (Finset.mem_sdiff.mp h).2 (Finset.mem_image.mpr ⟨2, Finset.mem_univ _, rfl⟩)

/-- That set held at a valuation: the result array and the bypassing buffers at it. -/
theorem held_tailSet (c : Dev nD) (W : Valuation τ sig (Elt F)) :
    (StableHlo.held (c.tc : Thread nD τ) tailSet W : sProp 𝕄)
      = iprop((((c.tc : Thread nD τ).loc main_v30) ↦{fullShare} W (Proc.devRef .tc main_v30))
          ∗ Pipeline.unscopedRest spec0 c (fun b => W (Proc.devRef .tc b))) := by
  unfold StableHlo.held tailSet Pipeline.unscopedRest
  rw [bigSep_map, bigSep_insert v30_not_rest]
  rfl

open Classical in
/-- The buffers at the region's exit, as far as the slice sees them: the result array at what the pipeline wrote
    back, every other buffer as the region found it. -/
def Wexit (c : Dev nD) : Valuation τ sig (Elt F) :=
  Function.update (V0 m c) (Proc.devRef .tc main_v30) ((dats m 0 c).arrAt 2 cfg0.N)

/-- The buffers after the slice. -/
def Wend (c : Dev nD) : Valuation τ sig (Elt F) := StableHlo.after (List.flatten [hostOps1]) (Wexit m c)
/-- The same read at a TensorCore reference. -/
abbrev Vend (c : Dev nD) (b : Ref sig .tc) : Buf (Elt F) ((c : Thread nD τ).loc b) := Wend m c (Proc.devRef .tc b)

theorem Wexit_v30 (c : Dev nD) : Wexit m c (Proc.devRef .tc main_v30) = (dats m 0 c).arrAt 2 cfg0.N := by
  unfold Wexit; rw [Function.update_self]

theorem Wexit_of_ne (c : Dev nD) (b : Ref sig .tc) (hb : b ≠ main_v30) : Wexit m c (Proc.devRef .tc b) = V m c b := by
  unfold Wexit; rw [Function.update_of_ne (StableHlo.devRef_ne_of_ne hb)]

/-- The slice's result: the leading 10000 × 10000 corner of what the pipeline wrote back. -/
theorem Vend_v31 (c : Dev nD) : Vend m c main_v31
    = extractStridedSlice S10000x10000 ![0, 0] ((dats m 0 c).arrAt 2 cfg0.N) slices_S10240x10240_S10000x10000_0_0 := by
  show StableHlo.after hostOps1 (Wexit m c) (Proc.devRef .tc main_v31) = _
  after_results
  rw [Wexit_v30]

/-- Every other reference is as the region found it (the slice writes only its result). -/
theorem Vend_of_ne (c : Dev nD) (b : Ref sig .tc) (hb : b ≠ main_v31) (hb' : b ≠ main_v30) : Vend m c b = V m c b := by
  show StableHlo.after hostOps1 (Wexit m c) (Proc.devRef .tc b) = _
  simp only [StableHlo.after_cons, StableHlo.after_nil]
  rw [StableHlo.unary_result_ne _ _ _ _ _ _ hb, Wexit_of_ne m c b hb']

theorem Wend_v30 (c : Dev nD) : Wend m c (Proc.devRef .tc main_v30) = (dats m 0 c).arrAt 2 cfg0.N := by
  show StableHlo.after hostOps1 (Wexit m c) (Proc.devRef .tc main_v30) = _
  simp only [StableHlo.after_cons, StableHlo.after_nil]
  rw [StableHlo.unary_result_ne _ _ _ _ _ _ (by decide), Wexit_v30]

/-- The slice touches the result array and its own result, a bypassing buffer. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.unary_bufs]
  intro b hb
  simp only [Finset.mem_insert, Finset.mem_singleton] at hb
  unfold tailSet
  rcases hb with rfl | rfl
  · exact Finset.mem_map_of_mem _ (Finset.mem_insert_self _ _)
  · exact Finset.mem_map_of_mem _ (Finset.mem_insert_of_mem (Pipeline.mem_restRefs_of main_v31 (by decide) (by decide)))

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- THE SLICE AFTER THE REGION: from the region's exit — the boundary, the pipeline's arrays at what it wrote back,
    the bypassing buffers as the region found them — the slice runs holding the result array and the bypassing
    buffers, and hands back the arrays unchanged and the bypassing buffers at `Vend`. The padded array's two half
    shares are carried across untouched. -/
theorem htail (𝒱₀ : Variants) (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have hW : (StableHlo.held (c.tc : Thread nD τ) tailSet (Wexit m c) : sProp 𝕄)
      = iprop((((c.tc : Thread nD τ).loc main_v30) ↦{fullShare} (dats m 0 c).arrAt 2 cfg0.N) ∗ Pipeline.unscopedRest spec0 c (V m c)) := by
    have hr : (Pipeline.unscopedRest spec0 c (fun b => Wexit m c (Proc.devRef .tc b)) : sProp 𝕄) = Pipeline.unscopedRest spec0 c (V m c) := by
      unfold Pipeline.unscopedRest
      exact bigSep_congr fun b hb => by dsimp only; rw [Wexit_of_ne m c b (fun e => v30_not_rest (e ▸ hb))]
    rw [held_tailSet, Wexit_v30, hr]
  have hW' : (StableHlo.held (c.tc : Thread nD τ) tailSet (StableHlo.after (List.flatten [hostOps1]) (Wexit m c)) : sProp 𝕄)
      = iprop((((c.tc : Thread nD τ).loc main_v30) ↦{fullShare} (dats m 0 c).arrAt 2 cfg0.N) ∗ Pipeline.unscopedRest spec0 c (Vend m c)) := by
    have h := held_tailSet (F := F) c (Wend m c)
    rw [Wend_v30] at h
    exact h
  rw [arrays_eq3]
  iintro ⟨Hk, Hb, ⟨A0, A1, A2⟩, HZ⟩
  ihave Hheld := (Entails.of_eq hW.symm) $$ [A2 HZ]
  · isplitl [A2]; · iexact A2
    iexact HZ
  iapply (Pipeline.wp_seqs_then (fun q => (cfgs q).toPCfg (Val := Elt F)) defs₀ 𝒱₀ c tailSet [] [hostOps1] tail_sub tail_fresh (Wexit m c)) $$ [Hb Hheld]
  · isplitl [Hb]; · iexact Hb
    iexact Hheld
  iintro Hb
  rw [Pipeline.chain_nil, wp_pure, hW']
  imodintro
  iapply Hk
  icases Hb with ⟨-, A2, HZ⟩
  isplitl [A0 A1 A2]
  · isplitl [A0]; · iexact A0
    isplitl [A1]; · iexact A1
    iexact A2
  iexact HZ

/-! ## The run -/

set_option backward.isDefEq.respectTransparency.types false in
/-- At the compiled mesh, from any memory with zero counters: every weakly fair execution of @main on the
    TensorCores terminates, and every final state has every buffer that bypasses the region — the arguments and
    the result of the slice among them — at `Vend`. -/
theorem run_main : θ_run defs (onTc (τ := τ) (main (F := F))) (s₀ m ρ)
    (fun r => ∀ c : Dev nD, ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      iintro ⟨HU, -, -, -, Hp, -⟩; imodintro
      isplitl [Hp]; · iexists _; iexact Hp
      iapply (Entails.of_eq (Pipeline.unscopedRestP_none spec0 c (V m c))); iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m Variants.none c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => (h c).2.2)

/-! ## The frame, and the run with the result named -/

/-- THE FRAME: every weakly fair execution of @main terminates, nothing faulting, and the argument arrays end
    unchanged — each bypasses the region, no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0 (Pipeline.mem_restRefs_of main_arg0 (by decide) (by decide))).trans ((Vend_of_ne m c main_arg0 (by decide) (by decide)).trans (V_main_arg0 m c)),
      (h c main_arg1 (Pipeline.mem_restRefs_of main_arg1 (by decide) (by decide))).trans ((Vend_of_ne m c main_arg1 (by decide) (by decide)).trans (V_main_arg1 m c)),
      (h c main_arg2 (Pipeline.mem_restRefs_of main_arg2 (by decide) (by decide))).trans ((Vend_of_ne m c main_arg2 (by decide) (by decide)).trans (V_main_arg2 m c)),
      (h c main_arg3 (Pipeline.mem_restRefs_of main_arg3 (by decide) (by decide))).trans ((Vend_of_ne m c main_arg3 (by decide) (by decide)).trans (V_main_arg3 m c)),
      (h c main_arg4 (Pipeline.mem_restRefs_of main_arg4 (by decide) (by decide))).trans ((Vend_of_ne m c main_arg4 (by decide) (by decide)).trans (V_main_arg4 m c)),
      (h c main_arg5 (Pipeline.mem_restRefs_of main_arg5 (by decide) (by decide))).trans ((Vend_of_ne m c main_arg5 (by decide) (by decide)).trans (V_main_arg5 m c))⟩) (run_main m ρ)

/-- The run with the result named: the slice of what the pipeline wrote back; the arguments unchanged. -/
theorem run_result : θ_run defs (onTc (τ := τ) (main (F := F))) ⟨m, fun _ => 0, ρ⟩ (fun r => ∀ c : Dev nD,
      r.2.mem ((c.tc : Thread nD τ).loc main_v31)
        = extractStridedSlice S10000x10000 ![0, 0] ((dats m 0 c).arrAt 2 cfg0.N) slices_S10240x10240_S10000x10000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v31 (Pipeline.mem_restRefs_of main_v31 (by decide) (by decide))).trans (Vend_v31 m c),
      (h c main_arg0 (Pipeline.mem_restRefs_of main_arg0 (by decide) (by decide))).trans ((Vend_of_ne m c main_arg0 (by decide) (by decide)).trans (V_main_arg0 m c)),
      (h c main_arg1 (Pipeline.mem_restRefs_of main_arg1 (by decide) (by decide))).trans ((Vend_of_ne m c main_arg1 (by decide) (by decide)).trans (V_main_arg1 m c)),
      (h c main_arg2 (Pipeline.mem_restRefs_of main_arg2 (by decide) (by decide))).trans ((Vend_of_ne m c main_arg2 (by decide) (by decide)).trans (V_main_arg2 m c)),
      (h c main_arg3 (Pipeline.mem_restRefs_of main_arg3 (by decide) (by decide))).trans ((Vend_of_ne m c main_arg3 (by decide) (by decide)).trans (V_main_arg3 m c)),
      (h c main_arg4 (Pipeline.mem_restRefs_of main_arg4 (by decide) (by decide))).trans ((Vend_of_ne m c main_arg4 (by decide) (by decide)).trans (V_main_arg4 m c)),
      (h c main_arg5 (Pipeline.mem_restRefs_of main_arg5 (by decide) (by decide))).trans ((Vend_of_ne m c main_arg5 (by decide) (by decide)).trans (V_main_arg5 m c))⟩) (run_main m ρ)

end Cert.KernelIdeal.Decode

end
-- ==== Proof.IdealBlock.lean ====
/-
  The decode body's output block, read at an index, at the extended reals.

  At Ideal the change of float format is the identity, the transpose moves an index, the matrix product into a zero
  accumulator is the plain sum over the 16 feature columns, and the logistic is applied entry by entry: entry (p, q)
  of the block is logistic(Σₖ x0[p, k] · x1[q, k]).
-/
import proofs.«156759_j32040456028319_1_alg».proof.Proof.IdealBody
import Idealize.ShloMosaic.Lib.ValueIdx
import Idealize.ShloMosaic.Lib.Pipeline.Value
import Idealize.ShloMosaic.PureOps.Ideal.Laws

set_option maxRecDepth 16384

noncomputable section

namespace Cert.KernelIdeal.Decode

open Cert.KernelIdeal Cert.KernelIdeal.Gen
open Idealize.ShloMosaic Idealize.ShloMosaic.TcCoe Idealize.SL.Sem

/-- Entry (p, k) of a 1024 × 16 block. -/
abbrev rowIx (p : Fin 1024) (k : Fin 16) : S1024x16.Idx := fun a => match a with
  | ⟨0, _⟩ => ⟨p.val, p.isLt⟩
  | ⟨1, _⟩ => ⟨k.val, k.isLt⟩

theorem hz : (![0, 0] : Fin 2 → Nat) = fun _ => 0 := funext fun a => by fin_cases a <;> rfl

theorem dot_lhs0 (j : S1024x1024.Idx) (q : dot_S1024x16_S16x1024_S1024x1024_1_0_0_1_n_n.contr.Idx) :
    (dot_S1024x16_S16x1024_S1024x1024_1_0_0_1_n_n.lhsIdx j q 0).val = (j 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem dot_lhs1 (j : S1024x1024.Idx) (q : dot_S1024x16_S16x1024_S1024x1024_1_0_0_1_n_n.contr.Idx) :
    (dot_S1024x16_S16x1024_S1024x1024_1_0_0_1_n_n.lhsIdx j q 1).val = (q ⟨0, by decide⟩).val :=
  dot_S1024x16_S16x1024_S1024x1024_1_0_0_1_n_n.lhsIdx_val_of_single rfl j q
theorem dot_rhs0 (j : S1024x1024.Idx) (q : dot_S1024x16_S16x1024_S1024x1024_1_0_0_1_n_n.contr.Idx) :
    (dot_S1024x16_S16x1024_S1024x1024_1_0_0_1_n_n.rhsIdx j q 0).val = (q ⟨0, by decide⟩).val :=
  dot_S1024x16_S16x1024_S1024x1024_1_0_0_1_n_n.rhsIdx_val_of_single rfl j q
theorem dot_rhs1 (j : S1024x1024.Idx) (q : dot_S1024x16_S16x1024_S1024x1024_1_0_0_1_n_n.contr.Idx) :
    (dot_S1024x16_S16x1024_S1024x1024_1_0_0_1_n_n.rhsIdx j q 1).val = (j 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The body's payload at entry `j`: the logistic of the sum over the feature columns of the products of row `j 0`
    of the first block and row `j 1` of the second. -/
theorem pay_apply (x0 x1 : FVec Ideal S1024x16 .f32) (j : S1024x1024.Idx) :
    k0_pay1 (F := Ideal) x0 x1 j
      = Ideal.logistic (∑ k : Fin 16, x0 (rowIx ⟨(j 0).val, (j 0).isLt⟩ k) * x1 (rowIx ⟨(j 1).val, (j 1).isLt⟩ k)) := by
  unfold k0_pay1
  show Ideal.logistic (FloatOps.matmul dot_S1024x16_S16x1024_S1024x1024_1_0_0_1_n_n none
      (truncf .bf16 (shapeCast S1024x16 x0 shapeCasts_S1024x16_S1024x16) bitsLt_bf16_f32)
      (transpose S16x1024 [1, 0] (truncf .bf16 (shapeCast S1024x16 x1 shapeCasts_S1024x16_S1024x16) bitsLt_bf16_f32) transposes_S1024x16_p1_0_S16x1024)
      (constant S1024x1024 .f32 0x00000000#32) j) = _
  rw [Ideal.matmul_constant_zero_apply, ← Equiv.sum_comp (ValueIdx.contrEquiv1 dot_S1024x16_S16x1024_S1024x1024_1_0_0_1_n_n 16 rfl rfl).symm,
    shapeCast_self, shapeCast_self]
  refine congrArg Ideal.logistic (Finset.sum_congr rfl fun k _ => ?_)
  have hk := ValueIdx.contrEquiv1_symm_val dot_S1024x16_S16x1024_S1024x1024_1_0_0_1_n_n 16 rfl rfl k
  have el : dot_S1024x16_S16x1024_S1024x1024_1_0_0_1_n_n.lhsIdx j ((ValueIdx.contrEquiv1 dot_S1024x16_S16x1024_S1024x1024_1_0_0_1_n_n 16 rfl rfl).symm k)
      = rowIx ⟨(j 0).val, (j 0).isLt⟩ k := funext fun a => Fin.ext (by
    match a with
    | ⟨0, _⟩ => exact dot_lhs0 _ _
    | ⟨1, _⟩ => exact (dot_lhs1 _ _).trans hk)
  have er : transpose S16x1024 [1, 0] (truncf .bf16 x1 bitsLt_bf16_f32 : FVec Ideal S1024x16 .bf16) transposes_S1024x16_p1_0_S16x1024
        (dot_S1024x16_S16x1024_S1024x1024_1_0_0_1_n_n.rhsIdx j ((ValueIdx.contrEquiv1 dot_S1024x16_S16x1024_S1024x1024_1_0_0_1_n_n 16 rfl rfl).symm k))
      = x1 (rowIx ⟨(j 1).val, (j 1).isLt⟩ k) :=
    transpose_apply [1, 0] _ transposes_S1024x16_p1_0_S16x1024 _ (rowIx ⟨(j 1).val, (j 1).isLt⟩ k) (fun b => by
      match b with
      | ⟨0, _⟩ => exact ((dot_rhs0 _ _).trans hk).symm
      | ⟨1, _⟩ => exact (dot_rhs1 _ _).symm)
  rw [el, er]
  rfl

/-- The output block at entry `j`. -/
theorem outBlock_apply (x0 x1 : FVec Ideal S1024x16 .f32) (j : S1024x1024.Idx) :
    outBlock (F := Ideal) x0 x1 j
      = Ideal.logistic (∑ k : Fin 16, x0 (rowIx ⟨(j 0).val, (j 0).isLt⟩ k) * x1 (rowIx ⟨(j 1).val, (j 1).isLt⟩ k)) := by
  unfold outBlock
  rw [View.canon_unit_zero hz]
  simp only [View.ld_unit_zero (S := S1024x16) hz]
  exact pay_apply x0 x1 j

end Cert.KernelIdeal.Decode

end
-- ==== Proof.IdealFinal.lean ====
/-
  From the output blocks to the whole result, at the extended reals.

  Block (i, j) of the 10240 × 10240 result holds logistic(Σₖ zp[1024 i + p, k] · zp[1024 j + q, k]) at its entry
  (p, q), where zp is the padded encoder output: the row-block window's block at a point is rows 1024 i … of zp, the
  column-block window's rows 1024 j …. The hundred blocks tile the result, so the whole array after the run is ONE
  function of zp: entry (r, s) is logistic(Σₖ zp[r, k] · zp[s, k]). The slice keeps its leading 10000 × 10000 corner.
-/
import proofs.«156759_j32040456028319_1_alg».proof.Proof.IdealRun
import proofs.«156759_j32040456028319_1_alg».proof.Proof.IdealBlock

set_option maxRecDepth 16384

noncomputable section

namespace Cert.KernelIdeal.Decode

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Entry (r, k) of the padded 10240 × 16 array. -/
abbrev padIx (r : Fin 10240) (k : Fin 16) : S10240x16.Idx := fun a => match a with
  | ⟨0, _⟩ => ⟨r.val, r.isLt⟩
  | ⟨1, _⟩ => ⟨k.val, k.isLt⟩

/-- Row `r` of the padded array, by its number (zero past the end, which is never read). -/
def zrow (zp : S10240x16.Idx → EReal) (r : Nat) (k : Fin 16) : EReal := if h : r < 10240 then zp (padIx ⟨r, h⟩ k) else 0

/-- The whole 10240 × 10240 result as one function of the padded array. -/
def Gpad (zp : S10240x16.Idx → EReal) : S10240x10240.Idx → Elt Ideal .f32 := fun i =>
  Ideal.logistic (∑ k : Fin 16, zrow zp (i 0).val k * zrow zp (i 1).val k)

/-- The printed index maps, decided over the grid: the row-block window follows the output's block row, the
    column-block window its block column, and both stay on the one block column of the padded array. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 9 ∧ win0_2.index t (1 : Fin 2) ≤ 9 :=
  (by decide +kernel : ∀ t : Fin grid0.N, _)

/-- Every block of the result is some point's. -/
theorem idx_onto : ∀ (q0 q1 : Fin 10), ∃ t : Fin cfg0.N, win0_2.index t = ![q0.val, q1.val] :=
  (by decide +kernel : ∀ (q0 q1 : Fin 10), ∃ t : Fin grid0.N, win0_2.index t = ![q0.val, q1.val])

/-- The row-block window's block at point `t`: rows 1024·(block row) … of the padded array. -/
theorem iblk0_apply (c : Dev nD) (t : Fin cfg0.N) (p : Fin 1024) (k : Fin 16) :
    iblk m c 0 t (rowIx p k) = zrow (V m c main_v29) (win0_2.index t (0 : Fin 2) * 1024 + p.val) k := by
  obtain ⟨e0, e1, e2, e3, b0, b1⟩ := idx_facts t
  have hp : p.val < 1024 := p.isLt
  unfold zrow
  rw [dif_pos (by omega)]
  show V m c main_v29 (((cfg0.win 0).blk t).view.emb (rowIx p k)) = _
  refine congrArg (V m c main_v29) (funext fun a => Fin.ext ?_)
  match a with
  | ⟨0, _⟩ => show win0_0.index t (0 : Fin 2) * 1024 + 1 * p.val = win0_2.index t (0 : Fin 2) * 1024 + p.val; omega
  | ⟨1, _⟩ => show win0_0.index t (1 : Fin 2) * 16 + 1 * k.val = k.val; omega

/-- The column-block window's block at point `t`: rows 1024·(block column) … of the padded array. -/
theorem iblk1_apply (c : Dev nD) (t : Fin cfg0.N) (p : Fin 1024) (k : Fin 16) :
    iblk m c 1 t (rowIx p k) = zrow (V m c main_v29) (win0_2.index t (1 : Fin 2) * 1024 + p.val) k := by
  obtain ⟨e0, e1, e2, e3, b0, b1⟩ := idx_facts t
  have hp : p.val < 1024 := p.isLt
  unfold zrow
  rw [dif_pos (by omega)]
  show V m c main_v29 (((cfg0.win 1).blk t).view.emb (rowIx p k)) = _
  refine congrArg (V m c main_v29) (funext fun a => Fin.ext ?_)
  match a with
  | ⟨0, _⟩ => show win0_1.index t (0 : Fin 2) * 1024 + 1 * p.val = win0_2.index t (1 : Fin 2) * 1024 + p.val; omega
  | ⟨1, _⟩ => show win0_1.index t (1 : Fin 2) * 16 + 1 * k.val = k.val; omega

/-- WHAT POINT `t` WRITES BACK is block `t` of `Gpad` of the padded array as the region finds it. -/
theorem flushed_eq (c : Dev nD) (t : Fin cfg0.N) :
    (dats m 0 c).flushed 2 t = ((cfg0.win 2).blk t).view.read (Elt Ideal) (Gpad (V m c main_v29)) := by
  show (cfg0.win 2).cut (grid0.coords t) ((dats m 0 c).after 2 t) = _
  rw [after0_2]
  funext y
  show outBlock (iblk m c 0 t) (iblk m c 1 t) y = Gpad (V m c main_v29) (((cfg0.win 2).blk t).view.emb y)
  refine (outBlock_apply _ _ y).trans ?_
  unfold Gpad
  refine congrArg Ideal.logistic (Finset.sum_congr rfl fun k _ => ?_)
  have h0 : ((((cfg0.win 2).blk t).view.emb y) 0).val = win0_2.index t (0 : Fin 2) * 1024 + (y 0).val := by
    show win0_2.index t (0 : Fin 2) * 1024 + 1 * (y 0).val = _; omega
  have h1 : ((((cfg0.win 2).blk t).view.emb y) 1).val = win0_2.index t (1 : Fin 2) * 1024 + (y 1).val := by
    show win0_2.index t (1 : Fin 2) * 1024 + 1 * (y 1).val = _; omega
  rw [iblk0_apply, iblk1_apply, h0, h1]

/-- An index of the result is in point `t`'s block iff each coordinate is in the block's range on its axis. -/
theorem mem_blk (t : Fin cfg0.N) (i : S10240x10240.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v30).slice (win0_2.rect t)).set ↔ _
  rw [View.set_slice_whole, Rect.mem_set_unit]
  exact Iff.rfl

/-- The blocks tile the result: every index is in the block of the point at its block row and block column. -/
theorem cover (i : S10240x10240.Idx) : ∃ t : Fin cfg0.N, (cfg0.win 2).flush t = true ∧ i ∈ ((cfg0.win 2).blk t).view.set := by
  have hi0 : (i 0).val < 10240 := (i 0).isLt
  have hi1 : (i 1).val < 10240 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run: `Gpad` of the padded array. -/
theorem final (c : Dev nD) : (dats m 0 c).arrAt 2 cfg0.N = Gpad (V m c main_v29) :=
  (dats m 0 c).arrAt_eq_of_cover 2 (Gpad (V m c main_v29)) (fun t _ => flushed_eq m c t) cover

/-- The slice of the result, entry by entry. -/
theorem slice_apply (zp : S10240x16.Idx → EReal) (j : S10000x10000.Idx) :
    extractStridedSlice S10000x10000 ![0, 0] (Gpad zp) slices_S10240x10240_S10000x10000_0_0 j
      = Ideal.logistic (∑ k : Fin 16, zrow zp (j 0).val k * zrow zp (j 1).val k) := by
  have hj0 : (j 0).val < 10000 := (j 0).isLt
  have hj1 : (j 1).val < 10000 := (j 1).isLt
  exact extractStridedSlice_apply ![0, 0] (Gpad zp) slices_S10240x10240_S10000x10000_0_0 j
    (fun a => match a with
      | ⟨0, _⟩ => ⟨(j 0).val, by show (j 0).val < 10240; omega⟩
      | ⟨1, _⟩ => ⟨(j 1).val, by show (j 1).val < 10240; omega⟩)
    (fun a => by
      match a with
      | ⟨0, _⟩ => show (j 0).val = 0 + (j 0).val; omega
      | ⟨1, _⟩ => show (j 1).val = 0 + (j 1).val; omega)

end Cert.KernelIdeal.Decode

end
-- ==== Proof.Bridge.lean ====
/-
  The bridge: the kernel's result and the reference's are one function of the arguments, at the extended reals.

  Both programs compute the encoder output z (10000 × 16) by the same host operations of the arguments — two graph
  convolutions — so it is carried as ONE term, never opened. The kernel pads z with 240 zero rows, and entry (r, s) of
  its sliced result is logistic(Σₖ zp[r, k] · zp[s, k]) with r, s < 10000, where the padded rows agree with z's. The
  reference's entry is 1 / (1 + exp(−Σₖ z[r, k] · z[s, k])), and the logistic IS that expression on the extended reals
  (the literal 1.0 denotes 1). No law needing finiteness is used: the two sums are the same sum.
-/
import proofs.«156759_j32040456028319_1_alg».proof.Proof.IdealFinal
import proofs.«156759_j32040456028319_1_alg».proof.Proof.Gen.ReferenceIdeal.Read
import Idealize.ShloMosaic.Lib.KernelVsHost

set_option maxRecDepth 16384

noncomputable section

namespace Cert.Bridge

open Idealize.ShloMosaic Idealize.ShloMosaic.TcCoe Idealize.SL.Sem
open Cert.KernelIdeal.Decode

/-- The literal 1.0 denotes 1. -/
theorem ofBits_one : Ideal.ofBits .f32 0x3F800000#32 = 1 := by
  simp [Ideal.ofBits, Ideal.ieee, -EReal.coe_mul]; norm_num

/-- The kernel's padded array, as a function of the encoder output. -/
def padded (z : Cert.KernelIdeal.S10000x16.Idx → EReal) : Cert.KernelIdeal.S10240x16.Idx → EReal :=
  pad Cert.KernelIdeal.S10240x16 ![0, 0] ![240, 0] ![0, 0] z (sitofp (F := Ideal) .f32 (constantI Cert.KernelIdeal.S_ 32 0#32))
    Cert.KernelIdeal.Facts₀.pads_S10000x16_S10240x16_02400_000 Cert.KernelIdeal.Facts₀.h_S_

/-- A row of the padded array inside the operand is the operand's row. -/
theorem zrow_padded (z : Cert.KernelIdeal.S10000x16.Idx → EReal) (r : Nat) (hr : r < 10000) (k : Fin 16) :
    zrow (padded z) r k = z (fun a => match a with
      | ⟨0, _⟩ => ⟨r, hr⟩
      | ⟨1, _⟩ => ⟨k.val, k.isLt⟩) := by
  unfold zrow
  rw [dif_pos (by omega)]
  unfold padded
  exact pad_apply_of_inside ![0, 0] ![240, 0] ![0, 0] z _ Cert.KernelIdeal.Facts₀.pads_S10000x16_S10240x16_02400_000 Cert.KernelIdeal.Facts₀.h_S_
    (padIx ⟨r, by omega⟩ k) (fun a => match a with
      | ⟨0, _⟩ => ⟨r, hr⟩
      | ⟨1, _⟩ => ⟨k.val, k.isLt⟩) (fun a => by
    match a with
    | ⟨0, _⟩ => show r = 0 + r * (0 + 1); omega
    | ⟨1, _⟩ => show k.val = 0 + k.val * (0 + 1); omega)

/-- ENTRY BY ENTRY the two results agree: the kernel's logistic of the padded rows' product sum is the reference's
    1 / (1 + exp(−·)) of the same sum. -/
theorem result_eq (x0 : (⟨Cert.ReferenceIdeal.S10000x512, .f32⟩ : BufTy).Contents (Elt Ideal)) (x1 : (⟨Cert.ReferenceIdeal.S512x32, .f32⟩ : BufTy).Contents (Elt Ideal)) (x2 : (⟨Cert.ReferenceIdeal.S32x16, .f32⟩ : BufTy).Contents (Elt Ideal)) (x3 : (⟨Cert.ReferenceIdeal.S330000, .f32⟩ : BufTy).Contents (Elt Ideal)) (x4 x5 : (⟨Cert.ReferenceIdeal.S330000, .i32⟩ : BufTy).Contents (Elt Ideal)) (j : Cert.ReferenceIdeal.S10000x10000.Idx) :
    Ideal.logistic (∑ k : Fin 16, zrow (padded (Cert.ReferenceIdeal.Read.val_main_v28 (F := Ideal) x0 x1 x2 x3 x4 x5)) (j 0).val k
        * zrow (padded (Cert.ReferenceIdeal.Read.val_main_v28 (F := Ideal) x0 x1 x2 x3 x4 x5)) (j 1).val k)
      = Cert.ReferenceIdeal.Read.val_main_v35 (F := Ideal) x0 x1 x2 x3 x4 x5 j := by
  rw [Cert.ReferenceIdeal.Read.val_main_v35_apply, Cert.ReferenceIdeal.Read.val_main_v34_apply, Cert.ReferenceIdeal.Read.val_main_cst_5_apply,
    Cert.ReferenceIdeal.Read.val_main_v33_apply, Cert.ReferenceIdeal.Read.val_main_v32_apply, Cert.ReferenceIdeal.Read.val_main_cst_4_apply,
    Cert.ReferenceIdeal.Read.val_main_v31_apply, Cert.ReferenceIdeal.Read.val_main_v30_apply, Cert.ReferenceIdeal.Read.val_main_v29_apply]
  generalize Cert.ReferenceIdeal.Read.val_main_v28 (F := Ideal) x0 x1 x2 x3 x4 x5 = z
  have hj0 : (j 0).val < 10000 := (j 0).isLt
  have hj1 : (j 1).val < 10000 := (j 1).isLt
  have hs : (∑ k : Fin 16, zrow (padded z) (j 0).val k * zrow (padded z) (j 1).val k)
      = ∑ k : Fin 16, z (Cert.ReferenceIdeal.Read.lidx_main_v29 j k) * z (Cert.ReferenceIdeal.Read.ridx_main_v29 j k) :=
    Finset.sum_congr rfl fun k _ => by rw [zrow_padded z _ hj0, zrow_padded z _ hj1]; rfl
  rw [hs]
  have h1 : (FloatOps.ofBits (F := Ideal) .f32 0x3F800000#32) = (1 : EReal) := ofBits_one
  rw [h1]
  rfl

end Cert.Bridge

end
-- ==== Proof.Encoder.lean ====
/-
  The encoder output as the region finds it: the reference's own term.

  The host lines before the region are, operation for operation, the reference's first lines: X W₁, the weighted
  gather / scatter-add, the relu, the product with W₂, the aggregation again; then the padding. Each stage is stated
  once over variables, so that the two spellings are compared a stage at a time and no gather or scatter-add is ever
  opened.
-/
import proofs.«156759_j32040456028319_1_alg».proof.Proof.Bridge

set_option maxRecDepth 16384

noncomputable section

namespace Cert.Bridge

open Idealize.ShloMosaic Idealize.ShloMosaic.TcCoe Idealize.SL.Sem
open Cert.KernelIdeal.Decode

/-- The first graph convolution's aggregate. -/
theorem enc_layer1 (x0 : Cert.KernelIdeal.S10000x512.Idx → EReal) (x1 : Cert.KernelIdeal.S512x32.Idx → EReal) (x3 : Cert.KernelIdeal.S330000.Idx → EReal) (x4 x5 : Cert.KernelIdeal.S330000.Idx → BitVec 32) :
    (Host.scatterAdd (F := Ideal) (φ := .f32) Cert.KernelIdeal.scatter_S10000x32_S330000x1_S330000x32_1_0_0_1
      (broadcastInDim Cert.KernelIdeal.S10000x32 ![] Cert.KernelIdeal.Gen.bcast_S_S10000x32 (constant (F := Ideal) Cert.KernelIdeal.S_ FTy.f32 0#32))
      (broadcastInDim Cert.KernelIdeal.S330000x1 ![0] Cert.KernelIdeal.Gen.bcast_S330000_S330000x1_0 x5)
      (mulf (broadcastInDim Cert.KernelIdeal.S330000x32 ![0, 1] Cert.KernelIdeal.Gen.bcast_S330000x1_S330000x32_0_1 (broadcastInDim Cert.KernelIdeal.S330000x1 ![0] Cert.KernelIdeal.Gen.bcast_S330000_S330000x1_0 x3))
        (Host.gather Cert.KernelIdeal.gather_S10000x32_S330000x1_S330000x32_1_0_n_n_0_1_132
          (Host.dotGeneral (F := Ideal) (φ₁ := .f32) (φ₂ := .f32) Cert.KernelIdeal.dot_S10000x512_S512x32_S10000x32_1_0_0_1_n_n none x0 x1)
          (broadcastInDim Cert.KernelIdeal.S330000x1 ![0] Cert.KernelIdeal.Gen.bcast_S330000_S330000x1_0
            (select (cmpi CmpIPredicate.slt x4 (broadcastInDim Cert.KernelIdeal.S330000 ![] Cert.KernelIdeal.Gen.bcast_S_S330000 (constantI Cert.KernelIdeal.S_ 32 0#32)))
              (addi x4 (broadcastInDim Cert.KernelIdeal.S330000 ![] Cert.KernelIdeal.Gen.bcast_S_S330000 (constantI Cert.KernelIdeal.S_ 32 10000#32))) x4))))) = Cert.ReferenceIdeal.Read.val_main_v13 (F := Ideal) x0 x1 x3 x4 x5 := rfl

/-- The relu, through the called function's typed references. -/
theorem enc_relu (L1 : Cert.KernelIdeal.S10000x32.Idx → EReal) :
    (StableHlo.TRef.of (sig := Cert.KernelIdeal.sig) (T := ⟨Cert.KernelIdeal.S10000x32, .f32⟩) Cert.KernelIdeal.main_v14).toBuf (Val := Elt Ideal) (maximumf (F := Ideal) (φ := .f32)
      ((StableHlo.TRef.of (sig := Cert.KernelIdeal.sig) (T := ⟨Cert.KernelIdeal.S10000x32, .f32⟩) Cert.KernelIdeal.main_v13).ofBuf (Val := Elt Ideal) L1)
      ((StableHlo.TRef.of (sig := Cert.KernelIdeal.sig) (T := ⟨Cert.KernelIdeal.S10000x32, .f32⟩) Cert.KernelIdeal.main_call0_v0).ofBuf (Val := Elt Ideal) ((StableHlo.TRef.of (sig := Cert.KernelIdeal.sig) (T := ⟨Cert.KernelIdeal.S10000x32, .f32⟩) Cert.KernelIdeal.main_call0_v0).toBuf (Val := Elt Ideal)
        (broadcastInDim Cert.KernelIdeal.S10000x32 ![] Cert.KernelIdeal.Gen.bcast_S_S10000x32
          ((StableHlo.TRef.of (sig := Cert.KernelIdeal.sig) (T := ⟨Cert.KernelIdeal.S_, .f32⟩) Cert.KernelIdeal.main_call0_cst).ofBuf (Val := Elt Ideal) ((StableHlo.TRef.of (sig := Cert.KernelIdeal.sig) (T := ⟨Cert.KernelIdeal.S_, .f32⟩) Cert.KernelIdeal.main_call0_cst).toBuf (Val := Elt Ideal) (constant (F := Ideal) Cert.KernelIdeal.S_ FTy.f32 0#32)))))))
    = maximumf (F := Ideal) (φ := .f32) L1 (Cert.ReferenceIdeal.Read.val_main_call0_v0 (F := Ideal)) := rfl

/-- The second graph convolution's aggregate, of any hidden layer. -/
theorem enc_layer2 (h : Cert.KernelIdeal.S10000x32.Idx → EReal) (x2 : Cert.KernelIdeal.S32x16.Idx → EReal) (x3 : Cert.KernelIdeal.S330000.Idx → EReal) (x4 x5 : Cert.KernelIdeal.S330000.Idx → BitVec 32) :
    (Host.scatterAdd (F := Ideal) (φ := .f32) Cert.KernelIdeal.scatter_S10000x16_S330000x1_S330000x16_1_0_0_1
      (broadcastInDim Cert.KernelIdeal.S10000x16 ![] Cert.KernelIdeal.Gen.bcast_S_S10000x16 (constant (F := Ideal) Cert.KernelIdeal.S_ FTy.f32 0#32))
      (broadcastInDim Cert.KernelIdeal.S330000x1 ![0] Cert.KernelIdeal.Gen.bcast_S330000_S330000x1_0 x5)
      (mulf (broadcastInDim Cert.KernelIdeal.S330000x16 ![0, 1] Cert.KernelIdeal.Gen.bcast_S330000x1_S330000x16_0_1 (broadcastInDim Cert.KernelIdeal.S330000x1 ![0] Cert.KernelIdeal.Gen.bcast_S330000_S330000x1_0 x3))
        (Host.gather Cert.KernelIdeal.gather_S10000x16_S330000x1_S330000x16_1_0_n_n_0_1_116
          (Host.dotGeneral (F := Ideal) (φ₁ := .f32) (φ₂ := .f32) Cert.KernelIdeal.dot_S10000x32_S32x16_S10000x16_1_0_0_1_n_n none h x2)
          (broadcastInDim Cert.KernelIdeal.S330000x1 ![0] Cert.KernelIdeal.Gen.bcast_S330000_S330000x1_0
            (select (cmpi CmpIPredicate.slt x4 (broadcastInDim Cert.KernelIdeal.S330000 ![] Cert.KernelIdeal.Gen.bcast_S_S330000 (constantI Cert.KernelIdeal.S_ 32 0#32)))
              (addi x4 (broadcastInDim Cert.KernelIdeal.S330000 ![] Cert.KernelIdeal.Gen.bcast_S_S330000 (constantI Cert.KernelIdeal.S_ 32 10000#32))) x4))))) = (Host.scatterAdd (F := Ideal) (φ := .f32) Cert.ReferenceIdeal.scatter_S10000x16_S330000x1_S330000x16_1_0_0_1
      (Cert.ReferenceIdeal.Read.val_main_v26 (F := Ideal)) (Cert.ReferenceIdeal.Read.val_main_v27 (F := Ideal) x5)
      (mulf (Cert.ReferenceIdeal.Read.val_main_v24 (F := Ideal) x3)
        (Host.gather Cert.ReferenceIdeal.gather_S10000x16_S330000x1_S330000x16_1_0_n_n_0_1_116
          (Host.dotGeneral (F := Ideal) (φ₁ := .f32) (φ₂ := .f32) Cert.ReferenceIdeal.dot_S10000x32_S32x16_S10000x16_1_0_0_1_n_n none h x2)
          (Cert.ReferenceIdeal.Read.val_main_v22 (F := Ideal) x4)))) := rfl

/-- The padding, through the called function's typed references. -/
theorem enc_pad (z : Cert.KernelIdeal.S10000x16.Idx → EReal) :
    (StableHlo.TRef.of (sig := Cert.KernelIdeal.sig) (T := ⟨Cert.KernelIdeal.S10240x16, .f32⟩) Cert.KernelIdeal.main_v29).toBuf (Val := Elt Ideal)
      (pad Cert.KernelIdeal.S10240x16 ![0, 0] ![240, 0] ![0, 0] ((StableHlo.TRef.of (sig := Cert.KernelIdeal.sig) (T := ⟨Cert.KernelIdeal.S10000x16, .f32⟩) Cert.KernelIdeal.main_v28).ofBuf (Val := Elt Ideal) z)
        ((StableHlo.TRef.of (sig := Cert.KernelIdeal.sig) (T := ⟨Cert.KernelIdeal.S_, .f32⟩) Cert.KernelIdeal.main_call1_v0).ofBuf (Val := Elt Ideal) ((StableHlo.TRef.of (sig := Cert.KernelIdeal.sig) (T := ⟨Cert.KernelIdeal.S_, .f32⟩) Cert.KernelIdeal.main_call1_v0).toBuf (Val := Elt Ideal)
          (sitofp (F := Ideal) FTy.f32 ((StableHlo.TRef.of (sig := Cert.KernelIdeal.sig) (T := ⟨Cert.KernelIdeal.S_, .i32⟩) Cert.KernelIdeal.main_c_4).ofBuf (Val := Elt Ideal) (constantI Cert.KernelIdeal.S_ 32 0#32)))))
        Cert.KernelIdeal.Gen.pads_S10000x16_S10240x16_02400_000 Cert.KernelIdeal.Gen.h_S_)
    = padded z := rfl

/-- The stages, folded into the reference's name for the encoder output. -/
theorem enc_fold (x0 : Cert.KernelIdeal.S10000x512.Idx → EReal) (x1 : Cert.KernelIdeal.S512x32.Idx → EReal) (x2 : Cert.KernelIdeal.S32x16.Idx → EReal) (x3 : Cert.KernelIdeal.S330000.Idx → EReal) (x4 x5 : Cert.KernelIdeal.S330000.Idx → BitVec 32) :
    (Host.scatterAdd (F := Ideal) (φ := .f32) Cert.ReferenceIdeal.scatter_S10000x16_S330000x1_S330000x16_1_0_0_1
      (Cert.ReferenceIdeal.Read.val_main_v26 (F := Ideal)) (Cert.ReferenceIdeal.Read.val_main_v27 (F := Ideal) x5)
      (mulf (Cert.ReferenceIdeal.Read.val_main_v24 (F := Ideal) x3)
        (Host.gather Cert.ReferenceIdeal.gather_S10000x16_S330000x1_S330000x16_1_0_n_n_0_1_116
          (Host.dotGeneral (F := Ideal) (φ₁ := .f32) (φ₂ := .f32) Cert.ReferenceIdeal.dot_S10000x32_S32x16_S10000x16_1_0_0_1_n_n none (maximumf (F := Ideal) (φ := .f32) (Cert.ReferenceIdeal.Read.val_main_v13 (F := Ideal) x0 x1 x3 x4 x5) (Cert.ReferenceIdeal.Read.val_main_call0_v0 (F := Ideal))) x2)
          (Cert.ReferenceIdeal.Read.val_main_v22 (F := Ideal) x4))))
      = Cert.ReferenceIdeal.Read.val_main_v28 (F := Ideal) x0 x1 x2 x3 x4 x5 := rfl

/-- The region finds the padded array at `padded` of the encoder output, spelt as the reference spells it. -/
theorem V_padded (m : (ℓ : Loc Cert.KernelIdeal.nD Cert.KernelIdeal.τ Cert.KernelIdeal.sig) → Buf (Elt Ideal) ℓ) (c : Dev Cert.KernelIdeal.nD) :
    V m c Cert.KernelIdeal.main_v29
      = padded (Cert.ReferenceIdeal.Read.val_main_v28 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5))) := by
  show StableHlo.after (List.flatten (prefixOps (F := Ideal))) (fun b => m (c, b)) (Proc.devRef .tc Cert.KernelIdeal.main_v29) = _
  simp only [prefixOps, Cert.KernelIdeal.Gen.hostOps0, Cert.KernelIdeal.Gen.hostOps0_1, Cert.KernelIdeal.Gen.hostOps0_2, Cert.KernelIdeal.Gen.hostOps0_3,
    List.flatten_cons, List.flatten_nil, List.append_nil, List.cons_append, List.nil_append]
  after_results_simp
  rw [enc_layer1, enc_relu, enc_layer2, enc_pad, enc_fold]

end Cert.Bridge

end
-- ==== Proof.lean ====
/-
  The certificate: a two-layer graph auto-encoder whose decoder — sigmoid(Z Zᵀ) over 10000 nodes — runs as a tiled
  kernel, against the plain reference.

  Both programs compute the encoder output Z (10000 × 16) by the same host operations: X W₁, a weighted
  gather / scatter-add over the 330000 edges, a relu, the product with W₂, the same aggregation again. The kernel
  then pads Z with 240 zero rows to 10240, and on a 10 × 10 grid computes, for each pair of 1024-row blocks,
  logistic(Zᵢ Zⱼᵀ) into the (i, j) block of a 10240 × 10240 array, of which the leading 10000 × 10000 corner is the
  result. The reference computes 1 / (1 + exp(−Z Zᵀ)) whole.

  The frames: @main is host lines, the region, one host line. The region's two input windows read ONE array, so its
  full share is dealt in halves at the entry (Proof/IdealRun.lean, Proof/BitsRun.lean — one text at the two float
  instances); the body is run symbolically (Proof/IdealBody.lean, Proof/BitsBody.lean). The reference has no kernel:
  its frame is its run with the result dropped.
  The value: the output block at an entry (Proof/IdealBlock.lean), the hundred blocks tiling the result
  (Proof/IdealFinal.lean), the encoder output spelt as the reference spells it (Proof/Encoder.lean), and the
  entry-by-entry agreement with the reference (Proof/Bridge.lean): at the extended
  reals the change of float format is the identity, the padded rows that are read are Z's own, the two sums over the
  16 features are the same sum, and the logistic is 1 / (1 + exp(−·)). The idealization rewrote nothing, so
  `preserves` is trivial.
-/
import proofs.«156759_j32040456028319_1_alg».proof.Defs
import proofs.«156759_j32040456028319_1_alg».proof.Proof.Gen.Kernel
import proofs.«156759_j32040456028319_1_alg».proof.Proof.Gen.KernelIdeal
import proofs.«156759_j32040456028319_1_alg».proof.Proof.Gen.ReferenceIdeal
import proofs.«156759_j32040456028319_1_alg».proof.Proof.Gen.Pre_finite_inputs
import proofs.«156759_j32040456028319_1_alg».proof.Proof.Gen.ReferenceIdeal.Run
import proofs.«156759_j32040456028319_1_alg».proof.Proof.BitsRun
import proofs.«156759_j32040456028319_1_alg».proof.Proof.Encoder

noncomputable section

namespace Cert.Proof

open Idealize.ShloMosaic Idealize.ShloMosaic.TcCoe Idealize.SL.Sem

theorem frame_k : Cert.frame_Kernel := fun m ρ _ => Cert.Kernel.Decode.frame (F := Bits) m ρ

theorem frame_ki : Cert.frame_KernelIdeal := fun m ρ _ => Cert.KernelIdeal.Decode.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with one array: the reference's composed term of the arguments. The
    kernel's run names its result as the slice of what the pipeline wrote back, which is `Gpad` of the padded encoder
    output (the blocks tile the array), read entry by entry against the reference's stages. -/
theorem algebraic : Cert.algebraic_KernelIdeal_ReferenceIdeal := by
  intro m ρ m' ρ' _ hagree
  refine ⟨fun c => Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Decode.run_result (F := Ideal) m ρ)
    rw [Cert.KernelIdeal.Decode.final, Cert.Bridge.V_padded]
    funext j
    rw [Cert.KernelIdeal.Decode.slice_apply]
    exact Cert.Bridge.result_eq _ _ _ _ _ _ j
  · refine (θ_run Cert.ReferenceIdeal.defs _ _).mono (fun _ h c => ⟨?_, (h c).2⟩) (Cert.ReferenceIdeal.Value.run (F := Ideal) m' ρ')
    rw [(h c).1, Cert.ReferenceIdeal.Read.val_main_v35_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
